-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x4096 : Shape := ⟨2, ![512, 4096]⟩
abbrev S4096x4096 : Shape := ⟨2, ![4096, 4096]⟩
abbrev S4096 : Shape := ⟨1, ![4096]⟩
abbrev S_ : Shape := ⟨0, ![]⟩

class Facts : Prop where
  bcast_S_S512x4096 : S_.BroadcastsInDim S512x4096 (![] : Fin 0 → Fin S512x4096.rank)
  reducesTo_S512x4096_S_d0_1 : S512x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S512x4096 .f32) (main_arg1 : FVec F S4096x4096 .f32) (main_arg2 : FVec F S4096x4096 .f32) (main_arg3 : IVec S4096 32) (main_arg4 : IVec S_ 32) : IVec S_ 1 :=
  let main_v0 : FVec F S512x4096 .f32 := Host.absf main_arg0
  let main_cst : FVec F S_ .f32 := constant S_ .f32 0x7F800000#32
  let main_v1 : FVec F S512x4096 .f32 := broadcastInDim S512x4096 ![] bcast_S_S512x4096 main_cst
  let main_v2 : IVec S512x4096 1 := cmpf .olt main_v0 main_v1
  let main_c : IVec S_ 1 := constantI S_ 1 1#1
  let main_v3 : IVec S_ 1 := (fun x v => Host.reduce IntOp.andi x v reducesTo_S512x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  main_v13
-- ==== Kernel.lean ====
abbrev S512x4096 : Shape := ⟨2, ![512, 4096]⟩
abbrev S4096x4096 : Shape := ⟨2, ![4096, 4096]⟩
abbrev S4096 : Shape := ⟨1, ![4096]⟩
abbrev S_ : Shape := ⟨0, ![]⟩
abbrev S4096x1 : Shape := ⟨2, ![4096, 1]⟩
abbrev S128x4096 : Shape := ⟨2, ![128, 4096]⟩
abbrev S128 : Shape := ⟨1, ![128]⟩
abbrev S128x1 : Shape := ⟨2, ![128, 1]⟩
abbrev S4096x128 : Shape := ⟨2, ![4096, 128]⟩
abbrev S512x128 : Shape := ⟨2, ![512, 128]⟩
abbrev S1x128 : Shape := ⟨2, ![1, 128]⟩

abbrev nBuf : Space → Nat
  | .hbm => 25
  | .vmem => 12
  | .smem => 0
  | _ => 0

abbrev bufTy : (tb : Table) → Fin (tcTables nBuf tb) → BufTy
  | .hbm, ⟨0, _⟩ => ⟨S512x4096, .f32⟩
  | .hbm, ⟨1, _⟩ => ⟨S4096x4096, .f32⟩
  | .hbm, ⟨2, _⟩ => ⟨S4096x4096, .f32⟩
  | .hbm, ⟨3, _⟩ => ⟨S4096, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S4096, .i32⟩
  | .hbm, ⟨8, _⟩ => ⟨S4096, .i32⟩
  | .hbm, ⟨9, _⟩ => ⟨S_, .i32⟩
  | .hbm, ⟨10, _⟩ => ⟨S4096, .i32⟩
  | .hbm, ⟨11, _⟩ => ⟨S4096, .i1⟩
  | .hbm, ⟨12, _⟩ => ⟨S_, .i32⟩
  | .hbm, ⟨13, _⟩ => ⟨S_, .i1⟩
  | .hbm, ⟨14, _⟩ => ⟨S4096, .i1⟩
  | .hbm, ⟨15, _⟩ => ⟨S4096, .i1⟩
  | .hbm, ⟨16, _⟩ => ⟨S_, .f32⟩
  | .hbm, ⟨17, _⟩ => ⟨S_, .f32⟩
  | .hbm, ⟨18, _⟩ => ⟨S4096, .f32⟩
  | .hbm, ⟨19, _⟩ => ⟨S4096, .f32⟩
  | .hbm, ⟨20, _⟩ => ⟨S4096, .f32⟩
  | .hbm, ⟨21, _⟩ => ⟨S4096, .f32⟩
  | .hbm, ⟨22, _⟩ => ⟨S4096x1, .f32⟩
  | .hbm, ⟨23, _⟩ => ⟨S512x4096, .bf16⟩
  | .hbm, ⟨24, _⟩ => ⟨S512x4096, .f32⟩
  | .local _ .vmem, ⟨0, _⟩ => ⟨S128x4096, .f32⟩
  | .local _ .vmem, ⟨1, _⟩ => ⟨S128x4096, .f32⟩
  | .local _ .vmem, ⟨2, _⟩ => ⟨S128x4096, .bf16⟩
  | .local _ .vmem, ⟨3, _⟩ => ⟨S128x4096, .bf16⟩
  | .local _ .vmem, ⟨4, _⟩ => ⟨S512x4096, .bf16⟩
  | .local _ .vmem, ⟨5, _⟩ => ⟨S4096x128, .f32⟩
  | .local _ .vmem, ⟨6, _⟩ => ⟨S4096x128, .f32⟩
  | .local _ .vmem, ⟨7, _⟩ => ⟨S128x4096, .f32⟩
  | .local _ .vmem, ⟨8, _⟩ => ⟨S128x4096, .f32⟩
  | .local _ .vmem, ⟨9, _⟩ => ⟨S4096x1, .f32⟩
  | .local _ .vmem, ⟨10, _⟩ => ⟨S512x128, .f32⟩
  | .local _ .vmem, ⟨11, _⟩ => ⟨S512x128, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_c_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_cst_2 : Ref sig .tc := ⟨.hbm, 17, rfl⟩
abbrev main_call0_v0 : Ref sig .tc := ⟨.hbm, 18, rfl⟩
abbrev main_call0_v1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem1_0 : DmaSem sig := 5
abbrev cc1_sem1_1 : DmaSem sig := 6
abbrev cc1_sem2_0 : DmaSem sig := 7
abbrev cc1_sem2_1 : DmaSem sig := 8
abbrev cc1_sem3_0 : DmaSem sig := 9
abbrev cc1_sem4_0 : DmaSem sig := 10
abbrev cc1_sem4_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S512x4096 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S4096x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S4096x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S512x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bcast_S_S4096 : S_.BroadcastsInDim S4096 (![] : Fin 0 → Fin S4096.rank)
  shapeCasts_S4096_S4096x1 : S4096.ShapeCasts S4096x1
  inb_S128x4096_S128x4096_0_0 : ∀ a, (![0, 0] : Fin 2 → Nat) a + S128x4096.size a ≤ S128x4096.size a
  h_S128x4096 : 0 < S128x4096.numel
  reduces_S128x4096_S128 : S128x4096.Reduces [1] S128
  shapeCasts_S128_S128x1 : S128.ShapeCasts S128x1
  broadcasts_S128x1_S128x4096 : S128x1.Broadcasts S128x4096
  bitsLt_bf16_f32 : FTy.bits .bf16 < FTy.bits .f32
  packedbf16_S128x4096_S128x4096_0_0 : (Rect.unit (s := S128x4096) ![0, 0] S128x4096.size inb_S128x4096_S128x4096_0_0).PackedRows (EltTy.packing .bf16)
  inb_S4096x128_S4096x128_0_0 : ∀ a, (![0, 0] : Fin 2 → Nat) a + S4096x128.size a ≤ S4096x128.size a
  h_S4096x128 : 0 < S4096x128.numel
  reduces_S4096x128_S128 : S4096x128.Reduces [0] S128
  shapeCasts_S128_S1x128 : S128.ShapeCasts S1x128
  broadcasts_S1x128_S4096x128 : S1x128.Broadcasts S4096x128
  transposes_S128x4096_p1_0_S4096x128 : S128x4096.Transposes [1, 0] S4096x128
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  broadcasts_S4096x1_S4096x128 : S4096x1.Broadcasts S4096x128
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S512x128_S512x128_0_0 : ∀ a, (![0, 0] : Fin 2 → Nat) a + S512x128.size a ≤ S512x128.size a
  h_S512x128 : 0 < S512x128.numel
  dot_S512x4096_S4096x128_S512x128_1_0_0_1_n_n_wf : DotDims.WF S512x4096 S4096x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S512x4096.size a
  hwx0_0 : ∀ i : grid0.Coords, EltTy.bits .f32 = 32 ∨ (Rect.block (s := S512x4096) S128x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x4096.size a ≤ S512x4096.size a
  hwx0_1 : ∀ i : grid0.Coords, EltTy.bits .bf16 = 32 ∨ (Rect.block (s := S512x4096) S128x4096.size (cc0_transform_1 i) (hinb0_1 i)).WholeWords (EltTy.packing .bf16)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S512x4096.size a
  hwx1_0 : ∀ i : grid1.Coords, EltTy.bits .bf16 = 32 ∨ (Rect.block (s := S512x4096) S512x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x128.size a ≤ S4096x4096.size a
  hwx1_1 : ∀ i : grid1.Coords, EltTy.bits .f32 = 32 ∨ (Rect.block (s := S4096x4096) S4096x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x4096.size a ≤ S4096x4096.size a
  hwx1_2 : ∀ i : grid1.Coords, EltTy.bits .f32 = 32 ∨ (Rect.block (s := S4096x4096) S128x4096.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S4096x1.size a ≤ S4096x1.size a
  hwx1_3 : ∀ i : grid1.Coords, EltTy.bits .f32 = 32 ∨ (Rect.block (s := S4096x1) S4096x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x128.size a ≤ S512x4096.size a
  hwx1_4 : ∀ i : grid1.Coords, EltTy.bits .f32 = 32 ∨ (Rect.block (s := S512x4096) S512x128.size (cc1_transform_4 i) (hinb1_4 i)).WholeWords (EltTy.packing .f32)

variable [Facts₀]

def dot_S512x4096_S4096x128_S512x128_1_0_0_1_n_n : DotDims S512x4096 S4096x128 S512x128 where
  lhsContracting := [1]
  rhsContracting := [0]
  lhsNonContracting := [0]
  rhsNonContracting := [1]
  lhsBatch := []
  rhsBatch := []
  wf := dot_S512x4096_S4096x128_S512x128_1_0_0_1_n_n_wf

abbrev win0_0 : Pipeline.Window sig grid0 :=
  Pipeline.Window.ofSpec (Memref.whole main_arg0) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S128x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v11) S512x4096.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S4096x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S128x4096.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v10) S4096x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v12) S512x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S512x4096 : Shape := ⟨2, ![512, 4096]⟩
abbrev S4096x4096 : Shape := ⟨2, ![4096, 4096]⟩
abbrev S4096 : Shape := ⟨1, ![4096]⟩
abbrev S_ : Shape := ⟨0, ![]⟩
abbrev S512 : Shape := ⟨1, ![512]⟩
abbrev S512x1 : Shape := ⟨2, ![512, 1]⟩
abbrev S1x4096 : Shape := ⟨2, ![1, 4096]⟩
abbrev S4096x1 : Shape := ⟨2, ![4096, 1]⟩

abbrev nBuf : Space → Nat
  | .hbm => 63
  | .vmem => 0
  | .smem => 0
  | _ => 0

abbrev bufTy : (tb : Table) → Fin (tcTables nBuf tb) → BufTy
  | .hbm, ⟨0, _⟩ => ⟨S512x4096, .f32⟩
  | .hbm, ⟨1, _⟩ => ⟨S4096x4096, .f32⟩
  | .hbm, ⟨2, _⟩ => ⟨S4096x4096, .f32⟩
  | .hbm, ⟨3, _⟩ => ⟨S4096, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S4096, .i32⟩
  | .hbm, ⟨8, _⟩ => ⟨S4096, .i32⟩
  | .hbm, ⟨9, _⟩ => ⟨S_, .i32⟩
  | .hbm, ⟨10, _⟩ => ⟨S4096, .i32⟩
  | .hbm, ⟨11, _⟩ => ⟨S4096, .i1⟩
  | .hbm, ⟨12, _⟩ => ⟨S_, .i32⟩
  | .hbm, ⟨13, _⟩ => ⟨S_, .i1⟩
  | .hbm, ⟨14, _⟩ => ⟨S4096, .i1⟩
  | .hbm, ⟨15, _⟩ => ⟨S4096, .i1⟩
  | .hbm, ⟨16, _⟩ => ⟨S_, .f32⟩
  | .hbm, ⟨17, _⟩ => ⟨S_, .f32⟩
  | .hbm, ⟨18, _⟩ => ⟨S4096, .f32⟩
  | .hbm, ⟨19, _⟩ => ⟨S4096, .f32⟩
  | .hbm, ⟨20, _⟩ => ⟨S4096, .f32⟩
  | .hbm, ⟨21, _⟩ => ⟨S4096, .f32⟩
  | .hbm, ⟨22, _⟩ => ⟨S512x4096, .f32⟩
  | .hbm, ⟨23, _⟩ => ⟨S_, .f32⟩
  | .hbm, ⟨24, _⟩ => ⟨S512, .f32⟩
  | .hbm, ⟨25, _⟩ => ⟨S512x1, .f32⟩
  | .hbm, ⟨26, _⟩ => ⟨S512x1, .f32⟩
  | .hbm, ⟨27, _⟩ => ⟨S_, .f32⟩
  | .hbm, ⟨28, _⟩ => ⟨S512x1, .f32⟩
  | .hbm, ⟨29, _⟩ => ⟨S512x1, .f32⟩
  | .hbm, ⟨30, _⟩ => ⟨S512x4096, .f32⟩
  | .hbm, ⟨31, _⟩ => ⟨S512x4096, .f32⟩
  | .hbm, ⟨32, _⟩ => ⟨S4096x4096, .f32⟩
  | .hbm, ⟨33, _⟩ => ⟨S_, .f32⟩
  | .hbm, ⟨34, _⟩ => ⟨S4096, .f32⟩
  | .hbm, ⟨35, _⟩ => ⟨S1x4096, .f32⟩
  | .hbm, ⟨36, _⟩ => ⟨S1x4096, .f32⟩
  | .hbm, ⟨37, _⟩ => ⟨S_, .f32⟩
  | .hbm, ⟨38, _⟩ => ⟨S1x4096, .f32⟩
  | .hbm, ⟨39, _⟩ => ⟨S1x4096, .f32⟩
  | .hbm, ⟨40, _⟩ => ⟨S4096x4096, .f32⟩
  | .hbm, ⟨41, _⟩ => ⟨S4096x4096, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S4096x4096, .f32⟩
  | .hbm, ⟨47, _⟩ => ⟨S4096x4096, .f32⟩
  | .hbm, ⟨48, _⟩ => ⟨S4096x4096, .f32⟩
  | .hbm, ⟨49, _⟩ => ⟨S4096x4096, .f32⟩
  | .hbm, ⟨50, _⟩ => ⟨S4096x4096, .f32⟩
  | .hbm, ⟨51, _⟩ => ⟨S4096x4096, .f32⟩
  | .hbm, ⟨52, _⟩ => ⟨S4096x4096, .f32⟩
  | .hbm, ⟨53, _⟩ => ⟨S_, .f32⟩
  | .hbm, ⟨54, _⟩ => ⟨S4096, .f32⟩
  | .hbm, ⟨55, _⟩ => ⟨S1x4096, .f32⟩
  | .hbm, ⟨56, _⟩ => ⟨S1x4096, .f32⟩
  | .hbm, ⟨57, _⟩ => ⟨S_, .f32⟩
  | .hbm, ⟨58, _⟩ => ⟨S1x4096, .f32⟩
  | .hbm, ⟨59, _⟩ => ⟨S1x4096, .f32⟩
  | .hbm, ⟨60, _⟩ => ⟨S4096x4096, .f32⟩
  | .hbm, ⟨61, _⟩ => ⟨S4096x4096, .f32⟩
  | .hbm, ⟨62, _⟩ => ⟨S512x4096, .f32⟩
  | _, _ => ⟨S512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_c_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_cst_2 : Ref sig .tc := ⟨.hbm, 17, rfl⟩
abbrev main_call0_v0 : Ref sig .tc := ⟨.hbm, 18, rfl⟩
abbrev main_call0_v1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_4 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_6 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_8 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_9 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  reducesTo_S512x4096_S512_d1 : S512x4096.ReducesTo [1] S512
  h_S_ : 0 < S_.numel
  bcast_S512_S512x1_0 : S512.BroadcastsInDim S512x1 (![0] : Fin 1 → Fin S512x1.rank)
  bcast_S_S512x1 : S_.BroadcastsInDim S512x1 (![] : Fin 0 → Fin S512x1.rank)
  bcast_S512x1_S512x4096_0_1 : S512x1.BroadcastsInDim S512x4096 (![0, 1] : Fin 2 → Fin S512x4096.rank)
  reducesTo_S4096x4096_S4096_d0 : S4096x4096.ReducesTo [0] S4096
  bcast_S4096_S1x4096_1 : S4096.BroadcastsInDim S1x4096 (![1] : Fin 1 → Fin S1x4096.rank)
  bcast_S_S1x4096 : S_.BroadcastsInDim S1x4096 (![] : Fin 0 → Fin S1x4096.rank)
  bcast_S1x4096_S4096x4096_0_1 : S1x4096.BroadcastsInDim S4096x4096 (![0, 1] : Fin 2 → Fin S4096x4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x4096_0_1 : S4096x1.BroadcastsInDim S4096x4096 (![0, 1] : Fin 2 → Fin S4096x4096.rank)
  transposes_S4096x4096_S4096x4096_1_0 : S4096x4096.Transposes [1, 0] S4096x4096
  dot_S512x4096_S4096x4096_S512x4096_1_0_0_1_n_n_wf : DotDims.WF S512x4096 S4096x4096 S512x4096 [1] [0] [0] [1] [] []

variable [Facts₀]

def dot_S512x4096_S4096x4096_S512x4096_1_0_0_1_n_n : DotDims S512x4096 S4096x4096 S512x4096 where
  lhsContracting := [1]
  rhsContracting := [0]
  lhsNonContracting := [0]
  rhsNonContracting := [1]
  lhsBatch := []
  rhsBatch := []
  wf := dot_S512x4096_S4096x4096_S512x4096_1_0_0_1_n_n_wf

class Facts : Prop extends Facts₀ where

variable [Facts]
-- ==== Proof.KernelRun.lean ====
/-
  The idealized kernel's run with its result array named.

  The program is a stretch of host operations (the per-channel mixing weight `ql`, reshaped to a column), then two kernel
  regions: the first writes the row-normalized input, the second reads it back together with the weight, the
  queue and the mixing-weight column and writes the result. Every weakly fair execution terminates, and in the final state
  the result buffer holds what the second region's write-backs leave in it, while the five argument arrays are
  as launched.
-/
import proofs.«138126_j40544491274895_1_alg».proof.Proof.Gen.KernelIdeal.Frame

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer then holds the
    contents the last region leaves (`W5`), and every argument array its launch contents. -/
theorem run_named : θ_run defs (onTc (τ := τ) (main (F := F))) ⟨m, fun _ => 0, ρ⟩ (fun r => ∀ c : Dev nD,
      r.2.mem ((c.tc : Thread nD τ).loc main_v12) = W5 m ρ c (Proc.devRef .tc main_v12)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v12 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c)⟩)

/-- The result buffer after the run is the second region's output array after its last write-back. -/
theorem W5_result (c : Dev nD) :
    W5 m ρ c (Proc.devRef .tc main_v12) = (dat1 (V4 m ρ) c).arrAt 4 cfg1.N := W5_arr m ρ c 4

/-- The second region finds, in its first operand's buffer, the first region's output array after its last
    write-back. -/
theorem V4_normed (c : Dev nD) :
    V4 m ρ c main_v11 = (dat0 (V3 m ρ) c).arrAt 1 cfg0.N := W4_arr m ρ c 1

/-- The first region finds the input as launched. -/
theorem V3_arg0 (c : Dev nD) : V3 m ρ c main_arg0 = m ((c : Thread nD τ).loc main_arg0) :=
  ((W4_arr m ρ c 0).trans (((dat0 (V3 m ρ) c).arrAt_in 0 rfl _).trans (A_eq0 (V3 m ρ) c 0))).symm.trans
    ((W5_of_ne m ρ c main_arg0 (by decide)).symm.trans (W5_main_arg0 m ρ c))

/-- The second region finds the weight as launched. -/
theorem V4_arg1 (c : Dev nD) : V4 m ρ c main_arg1 = m ((c : Thread nD τ).loc main_arg1) :=
  ((W5_arr m ρ c 1).trans (((dat1 (V4 m ρ) c).arrAt_in 1 rfl _).trans (A_eq1 (V4 m ρ) c 1))).symm.trans (W5_main_arg1 m ρ c)

/-- The second region finds the queue as launched. -/
theorem V4_arg2 (c : Dev nD) : V4 m ρ c main_arg2 = m ((c : Thread nD τ).loc main_arg2) :=
  ((W5_arr m ρ c 2).trans (((dat1 (V4 m ρ) c).arrAt_in 2 rfl _).trans (A_eq1 (V4 m ρ) c 2))).symm.trans (W5_main_arg2 m ρ c)

/-- The second region finds the mixing-weight column as the host operations left it (the first region does not touch it). -/
theorem V4_mixColumn (c : Dev nD) : V4 m ρ c main_v10 = V3 m ρ c main_v10 := W4_of_ne m ρ c main_v10 (by decide)

end Cert.KernelIdeal.Val

end
-- ==== Proof.LibColumns.lean ====
/-
  Column forms of a keepdims reduction, read at coordinates: a vector of `a` entries cast to the column `[a, 1]` reads
  its entry `i` at `(i, 0)`, and a column `[a, 1]` broadcast along `b` columns reads, at `(p, c)`, the column at
  `(p, 0)` — so a per-row value (a row maximum, a row sum) laid against every entry of its row is that row's value.
-/
import Idealize.ShloMosaic.Lib.ValueIdx
import Idealize.ShloMosaic.Lib.Pipeline.Value

namespace Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A per-row value cast to a column and broadcast along the row reads, at `(p, c)`, the value of row `p`. -/
theorem broadcastTo_column_apply {a b : ℕ} (x : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (p : Fin a) (c : Fin b) :
    broadcastTo ⟨2, ![a, b]⟩ (shapeCast ⟨2, ![a, 1]⟩ x h1) h2 (ix2 p c) = x (ix1 p) :=
  (broadcastTo_a1_ab_apply _ h2 p c).trans (shapeCast_a_a1_apply x h1 p 0)

end Idealize.ShloMosaic.ValueIdx
-- ==== Proof.MixWeight.lean ====
/-
  The mixing-weight column. Before the regions the host operations compute, from the queue's iteration stamps and the
  iteration counter, the per-row mixing weight (0.15 where the counter plus one exceeds 8000 and the stamp is at most 200
  behind it, 0 elsewhere) as a vector of 4096 entries, and reshape it to a column of 4096 × 1: entry (k, 0) of the
  column is entry k of the vector. No region writes the column.
-/
import proofs.«138126_j40544491274895_1_alg».proof.Proof.KernelRun
import proofs.«138126_j40544491274895_1_alg».proof.Proof.LibColumns
import Idealize.ShloMosaic.Lib.StableHlo.Run
import Idealize.ShloMosaic.Lib.ValueIdx

set_option maxRecDepth 16384

noncomputable section

namespace Cert.KernelIdeal.Val

open Idealize.ShloMosaic Idealize.ShloMosaic.TcCoe Idealize.ShloMosaic.ValueIdx
open Idealize.SL.Sem Idealize.ShloMosaic.StableHlo
open Cert.KernelIdeal Cert.KernelIdeal.Gen

variable {F : FTy → Type} [FloatOps F]

/-- The mixing-weight vector, as the host operations compute it from the stamps `x3` and the counter `x4`. -/
def mixWeight (x3 : (⟨S4096, .i32⟩ : BufTy).Contents (Elt F)) (x4 : (⟨S_, .i32⟩ : BufTy).Contents (Elt F)) :
    (⟨S4096, .f32⟩ : BufTy).Contents (Elt F) :=
  id (select
    (andi (broadcastInDim S4096 ![] Facts₀.bcast_S_S4096 (cmpi .sgt (addi x4 (constantI S_ 32 1#32)) (constantI S_ 32 8000#32)))
      (cmpi .sle (subi (broadcastInDim S4096 ![] Facts₀.bcast_S_S4096 (addi x4 (constantI S_ 32 1#32))) x3)
        (broadcastInDim S4096 ![] Facts₀.bcast_S_S4096 (constantI S_ 32 200#32))))
    (broadcastInDim S4096 ![] Facts₀.bcast_S_S4096 (constant S_ .f32 0x3E19999A#32))
    (broadcastInDim S4096 ![] Facts₀.bcast_S_S4096 (constant S_ .f32 0x00000000#32)))

variable (m : (ℓ : Loc nD τ sig) → Buf (Elt F) ℓ) (ρ : Dev nD → PrngReg)

/-- The first region is entered with the mixing-weight vector reshaped to a column in the column's buffer. -/
theorem V3_mixColumn (c : Dev nD) :
    V3 m ρ c main_v10 = shapeCast S4096x1 (mixWeight (m ((c : Thread nD τ).loc main_arg3)) (m ((c : Thread nD τ).loc main_arg4)))
      Facts₀.shapeCasts_S4096_S4096x1 := by
  show StableHlo.after hostOps0_2 (StableHlo.after hostOps0_1 (StableHlo.after hostOps0 (W0 m ρ c))) (Proc.devRef .tc main_v10) = _
  after_results
  rfl

end Cert.KernelIdeal.Val

end
-- ==== Proof.Spec.lean ====
/-
  The mathematics both programs compute, on the extended reals.

  `unit v` is a vector divided by its Euclidean norm, the norm clamped from below by the floor `eps` (the f32
  word of 1e-5 that both programs print): `unit v j = v j / max (sqrt (∑ k, v k · v k)) eps`.

  The input `x` (512 rows of 4096) is normalized row by row. Each column `c` of the weight `w` (4096 × 4096) is
  normalized, blended with row `c` of the queue `q` by the per-row mixing weight `l` (entry j of the blend is
  `unit w[:,c] j · (1 − l j) + q[c, j] · l j`), and normalized again. The result at (p, c) is the inner product of
  row p of the normalized input with that column.
-/
import Idealize.ShloMosaic.PureOps.Ideal
import Idealize.ShloMosaic.Lib.ValueIdx

noncomputable section

namespace Cert.Spec

open Idealize.ShloMosaic Idealize.ShloMosaic.ValueIdx
open scoped BigOperators

/-- The floor of a norm: the f32 word of 1e-5. -/
abbrev eps : EReal := Ideal.ofBits .f32 0x3727C5AC#32
/-- The f32 word of 1. -/
abbrev one : EReal := Ideal.ofBits .f32 0x3F800000#32

/-- A vector divided by its Euclidean norm, the norm clamped from below by `eps`. -/
def unit {n : ℕ} (v : Fin n → EReal) (j : Fin n) : EReal :=
  Ideal.div (v j) (max (Ideal.sqrt (∑ k : Fin n, v k * v k)) eps)

/-- A normalized weight column blended with a queue row by the mixing weight. -/
def blend {n : ℕ} (wc qc l : Fin n → EReal) (j : Fin n) : EReal :=
  unit wc j * (one - l j) + qc j * l j

/-- Column `c` of the injected matrix: the blend of weight column `c` and queue row `c`, normalized. -/
def injected (w q : (⟨2, ![4096, 4096]⟩ : Shape).Idx → EReal) (l : Fin 4096 → EReal) (c : Fin 4096) (j : Fin 4096) : EReal :=
  unit (blend (fun k => w (ix2 k c)) (fun k => q (ix2 c k)) l) j

/-- The input normalized row by row. -/
def normRows (x : (⟨2, ![512, 4096]⟩ : Shape).Idx → EReal) : (⟨2, ![512, 4096]⟩ : Shape).Idx → EReal :=
  fun i => unit (fun k => x (ix2 (i 0) k)) (i 1)

/-- A (row-normalized) input times the injected matrix. -/
def product (nx : (⟨2, ![512, 4096]⟩ : Shape).Idx → EReal) (w q : (⟨2, ![4096, 4096]⟩ : Shape).Idx → EReal)
    (l : Fin 4096 → EReal) : (⟨2, ![512, 4096]⟩ : Shape).Idx → EReal :=
  fun i => ∑ j : Fin 4096, nx (ix2 (i 0) j) * injected w q l (i 1) j

/-- What both programs return. -/
def result (x : (⟨2, ![512, 4096]⟩ : Shape).Idx → EReal) (w q : (⟨2, ![4096, 4096]⟩ : Shape).Idx → EReal)
    (l : Fin 4096 → EReal) : (⟨2, ![512, 4096]⟩ : Shape).Idx → EReal :=
  product (normRows x) w q l

end Cert.Spec

end
-- ==== Proof.RowNormBody.lean ====
/-
  The first kernel body's arithmetic at a coordinate: its stored block is the loaded block with every row divided by
  that row's clamped norm.
-/
import proofs.«138126_j40544491274895_1_alg».proof.Proof.Gen.KernelIdeal.Skeleton
import proofs.«138126_j40544491274895_1_alg».proof.Proof.Spec
import proofs.«138126_j40544491274895_1_alg».proof.Proof.LibColumns
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val

open Idealize.ShloMosaic Idealize.ShloMosaic.ValueIdx
open Cert.KernelIdeal Cert.KernelIdeal.Gen
open scoped BigOperators

/-- The inserted index of the row sum: row `p`, position `k`. -/
theorem lift_row (p : Fin 128) (k : Fin 4096) :
    (Facts₀.reduces_S128x4096_S128 : S128x4096.Reduces [1] S128).lift (ix1 p) k = ix2 p k := by
  funext a; apply Fin.ext
  match a with
  | ⟨0, _⟩ => rfl
  | ⟨1, _⟩ => rfl

/-- The sum of squares along row `p`. -/
theorem rowSum (x0 : FVec Ideal S128x4096 .f32) (hφ : FKind.Formats .f32)
    (hacc : (0x00000000#32 : BitVec 32) = FKind.add.neutral .f32 hφ) (p : Fin 128) :
    multiReduction .add [1] S128 (mulf x0 x0) 0x00000000#32 Facts₀.reduces_S128x4096_S128 hφ hacc (ix1 p)
      = ∑ k : Fin 4096, x0 (ix2 p k) * x0 (ix2 p k) :=
  (Ideal.multiReduction_add_single (mulf x0 x0) _ Facts₀.reduces_S128x4096_S128 hφ hacc (ix1 p)).trans
    (Finset.sum_congr rfl fun k _ => congrArg (fun i => x0 i * x0 i) (lift_row p k))

/-- Entry (p, c) of the block the first body stores: entry c of row p of the loaded block, normalized. -/
theorem pay0_apply (x0 : Vec Ideal S128x4096 .f32) (p : Fin 128) (c : Fin 4096) :
    k0_pay1 (F := Ideal) x0 (ix2 p c) = Cert.Spec.unit (fun k => x0 (ix2 p k)) c := by
  unfold k0_pay1
  dsimp only
  rw [truncf_apply, divf_apply, broadcastTo_a1_ab_apply, maximumf_apply, broadcast_apply]
  rw [show ∀ (v : FVec Ideal S128x1 .f32) (i : S128x1.Idx), sqrt v i = Ideal.sqrt (v i) from fun _ _ => rfl]
  rw [shapeCast_a_a1_apply]
  exact congrArg (fun s => Ideal.div (x0 (ix2 p c)) (max (Ideal.sqrt s) Cert.Spec.eps))
    (rowSum x0 _ _ p)

end Cert.KernelIdeal.Val

end
-- ==== Proof.Normed.lean ====
/-
  The first region's output array. Grid point t holds rows 128·t … 128·t + 127 of the input (all 4096 columns) and
  writes back the same rows of the output; a row's normalization reads that row only, so each written block is the
  block of ONE whole-array function: the input normalized row by row. The four blocks tile the array.
-/
import proofs.«138126_j40544491274895_1_alg».proof.Proof.Gen.KernelIdeal.Frame
import proofs.«138126_j40544491274895_1_alg».proof.Proof.RowNormBody
import proofs.«138126_j40544491274895_1_alg».proof.Proof.Spec
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.ShloMosaic.ValueIdx
open Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem zero_offsets : (![0, 0] : Fin 2 → Nat) = fun _ => 0 := funext fun a => by fin_cases a <;> rfl

/-- Over the four grid points: the input's and the output's blocks sit at the same block row, at block column 0. -/
theorem rows_facts : ∀ t : Fin cfg0.N, win0_0.index t (0 : Fin 2) = win0_1.index t (0 : Fin 2)
    ∧ win0_0.index t (1 : Fin 2) = 0 ∧ win0_1.index t (1 : Fin 2) = 0 ∧ win0_1.index t (0 : Fin 2) ≤ 3 :=
  (by decide +kernel : ∀ t : Fin grid0.N, _)

/-- Every block row is some point's. -/
theorem rows_onto : ∀ (r : Fin 4), ∃ t : Fin cfg0.N, win0_1.index t = ![r.val, 0] :=
  (by decide +kernel : ∀ (r : Fin 4), ∃ t : Fin grid0.N, win0_1.index t = ![r.val, 0])

/-- One block: if the loaded block `x0` is rows r·128 … of the array `X`, the stored block is the same rows of `X`
    normalized row by row. -/
theorem rowBlock (X : S512x4096.Idx → EReal) (x0 : Vec Ideal S128x4096 .f32) (r : ℕ) (j : S128x4096.Idx) (i : S512x4096.Idx)
    (hi0 : (i 0).val = r * 128 + (j 0).val) (hi1 : (i 1).val = (j 1).val)
    (hx : ∀ (y : S128x4096.Idx) (z : S512x4096.Idx), (z 0).val = r * 128 + (y 0).val → (z 1).val = (y 1).val → x0 y = X z) :
    k0_pay1 (F := Ideal) x0 j = Cert.Spec.normRows X i := by
  obtain ⟨p, q, rfl⟩ : ∃ (p : Fin 128) (q : Fin 4096), j = ix2 p q := ⟨j 0, j 1, eq_ix2 j⟩
  rw [pay0_apply]
  unfold Cert.Spec.normRows
  have h1 : i 1 = q := Fin.ext hi1
  have hf : (fun k : Fin 4096 => x0 (ix2 p k)) = (fun k : Fin 4096 => X (ix2 (i 0) k)) :=
    funext fun k => hx (ix2 p k) (ix2 (i 0) k) hi0 rfl
  rw [hf, h1]

/-- What point `t` writes back is block `t` of the input normalized row by row. -/
theorem flushed_rows (c : Dev nD) (t : Fin cfg0.N) :
    (dat0 V c).flushed 1 t = ((cfg0.win 1).blk t).view.read (Elt Ideal) (Cert.Spec.normRows (V c main_arg0)) := by
  show (cfg0.win 1).cut (grid0.coords t) ((dat0 V c).after 1 t) = _
  rw [after0_1]
  unfold out0_1
  rw [View.canon_unit_zero zero_offsets]
  simp only [View.ld_unit_zero (S := S128x4096) zero_offsets]
  obtain ⟨e0, e1, e2, e3⟩ := rows_facts t
  funext j
  refine rowBlock (V c main_arg0) (iblk0 V c 0 t) (win0_1.index t (0 : Fin 2)) j _ ?_ ?_ ?_
  · show win0_1.index t (0 : Fin 2) * 128 + 1 * (j 0).val = _
    omega
  · show win0_1.index t (1 : Fin 2) * 4096 + 1 * (j 1).val = _
    omega
  · intro y z hz0 hz1
    show V c main_arg0 (((cfg0.win 0).blk t).view.emb y) = V c main_arg0 z
    refine congrArg _ (funext fun a => Fin.ext ?_)
    match a with
    | ⟨0, _⟩ => show win0_0.index t (0 : Fin 2) * 128 + 1 * (y 0).val = (z 0).val; omega
    | ⟨1, _⟩ => show win0_0.index t (1 : Fin 2) * 4096 + 1 * (y 1).val = (z 1).val; omega

/-- An index is in point `t`'s block iff each coordinate is in the block's range on its axis. -/
theorem mem_rows (t : Fin cfg0.N) (i : S512x4096.Idx) :
    i ∈ ((cfg0.win 1).blk t).view.set ↔ ∀ a : Fin 2, win0_1.index t a * S128x4096.size a ≤ (i a).val ∧ (i a).val < win0_1.index t a * S128x4096.size a + S128x4096.size a := by
  show i ∈ ((View.whole main_v11).slice (win0_1.rect t)).set ↔ _
  rw [View.set_slice_whole, Rect.mem_set_unit]
  exact Iff.rfl

/-- The first region leaves, in its output array, the input normalized row by row. -/
theorem normed (c : Dev nD) : (dat0 V c).arrAt 1 cfg0.N = Cert.Spec.normRows (V c main_arg0) := by
  refine (dat0 V c).arrAt_eq_of_cover 1 _ (fun t _ => flushed_rows V c t) fun i => ?_
  have hi0 : (i 0).val < 512 := (i 0).isLt
  have hi1 : (i 1).val < 4096 := (i 1).isLt
  obtain ⟨t, ht⟩ := rows_onto ⟨(i 0).val / 128, by omega⟩
  have q0 : win0_1.index t (0 : Fin 2) = (i 0).val / 128 := congrFun ht 0
  have q1 : win0_1.index t (1 : Fin 2) = 0 := congrFun ht 1
  refine ⟨t, flush0_1 t, ?_⟩
  rw [mem_rows]
  intro a
  match a with
  | ⟨0, _⟩ => show win0_1.index t (0 : Fin 2) * 128 ≤ (i 0).val ∧ (i 0).val < win0_1.index t (0 : Fin 2) * 128 + 128; omega
  | ⟨1, _⟩ => show win0_1.index t (1 : Fin 2) * 4096 ≤ (i 1).val ∧ (i 1).val < win0_1.index t (1 : Fin 2) * 4096 + 4096; omega

end Cert.KernelIdeal.Val

end
-- ==== Proof.LibMatmul.lean ====
/-
  A matrix product of two rank-2 arrays read at coordinates. For dimension numbers that contract the left operand's
  second axis against the right operand's first, keep the left rows and the right columns and have no batch axis,
  the entry (p, q) of the product is the sum over the contracted position j of lhs (p, j) · rhs (j, q): the left
  operand is read along row p, the right operand along column q. Both the matrix unit's product into a zero
  accumulator and the host's dot product are that sum on the extended reals.
-/
import Idealize.ShloMosaic.Lib.ValueIdx
import Idealize.ShloMosaic.PureOps.Ideal.Laws

open scoped BigOperators

namespace Idealize.ShloMosaic.ValueIdx

open Idealize.ShloMosaic

section RowsByColumns

variable {a k b : ℕ} (d : DotDims ⟨2, ![a, k]⟩ ⟨2, ![k, b]⟩ ⟨2, ![a, b]⟩)

/-- One contracted axis. -/
theorem dot_contr_rank (hl : d.lhsContracting = [1]) : d.contr.rank = 1 := by
  rw [d.rank_contr, hl]; rfl

/-- Its extent is the shared inner extent k. -/
theorem dot_contr_size (hl : d.lhsContracting = [1]) :
    d.contr.size ⟨0, by rw [dot_contr_rank d hl]; exact Nat.one_pos⟩ = k := by
  rw [d.size_contr 0 (by rw [hl]; exact Nat.one_pos), List.getElem_of_eq hl]
  rfl

/-- The contraction index is its one coordinate. -/
noncomputable def dotEquiv (hl : d.lhsContracting = [1]) : d.contr.Idx ≃ Fin k :=
  contrEquiv1 d k (dot_contr_rank d hl) (dot_contr_size d hl)

/-- The left operand is read at row p, contracted position j. -/
theorem dot_lhsIdx_ix2 (hl : d.lhsContracting = [1]) (hln : d.lhsNonContracting = [0]) (hlb : d.lhsBatch = [])
    (p : Fin a) (q : Fin b) (j : Fin k) :
    d.lhsIdx (ix2 p q) ((dotEquiv d hl).symm j) = ix2 p j := by
  funext ax
  apply Fin.ext
  match ax with
  | ⟨0, _⟩ =>
    have hnb : (0 : Fin 2) ∉ d.lhsBatch := by rw [hlb]; exact List.not_mem_nil
    have hn : (0 : Fin 2) ∈ d.lhsNonContracting := by rw [hln]; exact List.mem_singleton.mpr rfl
    show (d.lhsIdx (ix2 p q) ((dotEquiv d hl).symm j) (0 : Fin 2)).val = p.val
    unfold DotDims.lhsIdx
    rw [dif_neg hnb, dif_pos hn]
    simp only [Fin.val_cast]
    have key : ∀ (n : ℕ) (hn : n < (⟨2, ![a, b]⟩ : Shape).rank), n = 0 → ((ix2 p q) ⟨n, hn⟩).val = p.val :=
      fun n hn h => by subst h; rfl
    exact key _ _ (by simp [hlb, hln])
  | ⟨1, _⟩ =>
    show (d.lhsIdx (ix2 p q) ((dotEquiv d hl).symm j) (1 : Fin 2)).val = j.val
    rw [d.lhsIdx_val_of_single hl]
    exact contrEquiv1_symm_val d k (dot_contr_rank d hl) (dot_contr_size d hl) j

/-- The right operand is read at contracted position j, column q. -/
theorem dot_rhsIdx_ix2 (hl : d.lhsContracting = [1]) (hr : d.rhsContracting = [0]) (hln : d.lhsNonContracting = [0])
    (hrn : d.rhsNonContracting = [1]) (hlb : d.lhsBatch = []) (hrb : d.rhsBatch = [])
    (p : Fin a) (q : Fin b) (j : Fin k) :
    d.rhsIdx (ix2 p q) ((dotEquiv d hl).symm j) = ix2 j q := by
  funext ax
  apply Fin.ext
  match ax with
  | ⟨0, _⟩ =>
    show (d.rhsIdx (ix2 p q) ((dotEquiv d hl).symm j) (0 : Fin 2)).val = j.val
    rw [d.rhsIdx_val_of_single hr]
    exact contrEquiv1_symm_val d k (dot_contr_rank d hl) (dot_contr_size d hl) j
  | ⟨1, _⟩ =>
    have hnb : (1 : Fin 2) ∉ d.rhsBatch := by rw [hrb]; exact List.not_mem_nil
    have hn : (1 : Fin 2) ∈ d.rhsNonContracting := by rw [hrn]; exact List.mem_singleton.mpr rfl
    show (d.rhsIdx (ix2 p q) ((dotEquiv d hl).symm j) (1 : Fin 2)).val = q.val
    unfold DotDims.rhsIdx
    rw [dif_neg hnb, dif_pos hn]
    simp only [Fin.val_cast]
    have key : ∀ (n : ℕ) (hn : n < (⟨2, ![a, b]⟩ : Shape).rank), n = 1 → ((ix2 p q) ⟨n, hn⟩).val = q.val :=
      fun n hn h => by subst h; rfl
    exact key _ _ (by simp [hlb, hln, hrn])

variable {φ₁ φ₂ : FTy}

/-- The matrix unit's product into the zero accumulator, at (p, q). -/
theorem matmul_zero_ix2 (hl : d.lhsContracting = [1]) (hr : d.rhsContracting = [0]) (hln : d.lhsNonContracting = [0])
    (hrn : d.rhsNonContracting = [1]) (hlb : d.lhsBatch = []) (hrb : d.rhsBatch = [])
    (prec : Option ContractPrecision) (lhs : FVec Ideal ⟨2, ![a, k]⟩ φ₁) (rhs : FVec Ideal ⟨2, ![k, b]⟩ φ₂)
    (p : Fin a) (q : Fin b) :
    FloatOps.matmul d prec lhs rhs (constant ⟨2, ![a, b]⟩ .f32 0x00000000#32) (ix2 p q)
      = ∑ j : Fin k, lhs (ix2 p j) * rhs (ix2 j q) := by
  rw [Ideal.matmul_constant_zero_apply, ← Equiv.sum_comp (dotEquiv d hl).symm]
  refine Finset.sum_congr rfl fun j _ => ?_
  rw [dot_lhsIdx_ix2 d hl hln hlb p q j, dot_rhsIdx_ix2 d hl hr hln hrn hlb hrb p q j]

/-- The host's dot product, at (p, q). -/
theorem dotGeneral_ix2 (hl : d.lhsContracting = [1]) (hr : d.rhsContracting = [0]) (hln : d.lhsNonContracting = [0])
    (hrn : d.rhsNonContracting = [1]) (hlb : d.lhsBatch = []) (hrb : d.rhsBatch = [])
    (prec : Option ContractPrecision) (sched : HostSchedule) (lhs : FVec Ideal ⟨2, ![a, k]⟩ φ₁) (rhs : FVec Ideal ⟨2, ![k, b]⟩ φ₂)
    (p : Fin a) (q : Fin b) :
    FloatOps.dotGeneral d prec sched lhs rhs (ix2 p q) = ∑ j : Fin k, lhs (ix2 p j) * rhs (ix2 j q) := by
  rw [Ideal.dotGeneral_apply, ← Equiv.sum_comp (dotEquiv d hl).symm]
  refine Finset.sum_congr rfl fun j _ => ?_
  rw [dot_lhsIdx_ix2 d hl hln hlb p q j, dot_rhsIdx_ix2 d hl hr hln hrn hlb hrb p q j]

end RowsByColumns

end Idealize.ShloMosaic.ValueIdx
-- ==== Proof.InjectBody.lean ====
/-
  The second kernel body's arithmetic at a coordinate. Its loaded blocks are 128 weight columns (4096 × 128), the
  128 queue rows of the same numbers (128 × 4096), the mixing-weight column (4096 × 1) and the whole normalized input
  (512 × 4096). For each of the 128 columns it normalizes the weight column, blends it with the queue row by the
  mixing weight, normalizes the blend, and stores the product of the normalized input with those 128 columns.
-/
import proofs.«138126_j40544491274895_1_alg».proof.Proof.Gen.KernelIdeal.Skeleton
import proofs.«138126_j40544491274895_1_alg».proof.Proof.Spec
import proofs.«138126_j40544491274895_1_alg».proof.Proof.LibColumns
import proofs.«138126_j40544491274895_1_alg».proof.Proof.LibMatmul
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val

open Idealize.ShloMosaic Idealize.ShloMosaic.ValueIdx
open Cert.KernelIdeal Cert.KernelIdeal.Gen
open scoped BigOperators

/-- The inserted index of a column sum: position `k`, column `c`. -/
theorem lift_col (c : Fin 128) (k : Fin 4096) :
    (Facts₀.reduces_S4096x128_S128 : S4096x128.Reduces [0] S128).lift (ix1 c) k = ix2 k c := by
  funext a; apply Fin.ext
  match a with
  | ⟨0, _⟩ => rfl
  | ⟨1, _⟩ => rfl

/-- The sum of squares down column `c`. -/
theorem colSum (v : FVec Ideal S4096x128 .f32) (hφ : FKind.Formats .f32)
    (hacc : (0x00000000#32 : BitVec 32) = FKind.add.neutral .f32 hφ) (c : Fin 128) :
    multiReduction .add [0] S128 (mulf v v) 0x00000000#32 Facts₀.reduces_S4096x128_S128 hφ hacc (ix1 c)
      = ∑ k : Fin 4096, v (ix2 k c) * v (ix2 k c) :=
  (Ideal.multiReduction_add_single (mulf v v) _ Facts₀.reduces_S4096x128_S128 hφ hacc (ix1 c)).trans
    (Finset.sum_congr rfl fun k _ => congrArg (fun i => v i * v i) (lift_col c k))

/-- A block of columns, each divided by its clamped norm: entry (j, c) is entry j of column c, normalized. -/
theorem colUnit (v : FVec Ideal S4096x128 .f32) (hφ : FKind.Formats .f32)
    (hacc : (0x00000000#32 : BitVec 32) = FKind.add.neutral .f32 hφ) (j : Fin 4096) (c : Fin 128) :
    divf v (broadcastTo S4096x128 (maximumf (sqrt (shapeCast S1x128
        (multiReduction .add [0] S128 (mulf v v) 0x00000000#32 Facts₀.reduces_S4096x128_S128 hφ hacc) Facts₀.shapeCasts_S128_S1x128))
        (broadcast S1x128 (Scalar.ofBits .f32 0x3727C5AC#32))) Facts₀.broadcasts_S1x128_S4096x128) (ix2 j c)
      = Cert.Spec.unit (fun k => v (ix2 k c)) j := by
  rw [divf_apply, broadcastTo_1b_ab_apply, maximumf_apply, broadcast_apply]
  rw [show ∀ (u : FVec Ideal S1x128 .f32) (i : S1x128.Idx), sqrt u i = Ideal.sqrt (u i) from fun _ _ => rfl]
  rw [shapeCast_a_1a_apply]
  exact congrArg (fun s => Ideal.div (v (ix2 j c)) (max (Ideal.sqrt s) Cert.Spec.eps)) (colSum v hφ hacc c)

/-- Entry (j, c) of the blend: the normalized weight column and the queue row, mixed by the mixing weight at row j. -/
theorem blendAt (v0 : FVec Ideal S4096x128 .f32) (v9 : FVec Ideal S128x4096 .f32) (v11 : FVec Ideal S4096x1 .f32)
    (hφ : FKind.Formats .f32) (hacc : (0x00000000#32 : BitVec 32) = FKind.add.neutral .f32 hφ) (j : Fin 4096) (c : Fin 128) :
    addf (mulf (divf v0 (broadcastTo S4096x128 (maximumf (sqrt (shapeCast S1x128
          (multiReduction .add [0] S128 (mulf v0 v0) 0x00000000#32 Facts₀.reduces_S4096x128_S128 hφ hacc) Facts₀.shapeCasts_S128_S1x128))
          (broadcast S1x128 (Scalar.ofBits .f32 0x3727C5AC#32))) Facts₀.broadcasts_S1x128_S4096x128))
        (broadcastTo S4096x128 (subf (broadcast S4096x1 (Scalar.ofBits .f32 0x3F800000#32))
          (shapeCast S4096x1 v11 Facts₀.shapeCasts_S4096x1_S4096x1)) Facts₀.broadcasts_S4096x1_S4096x128))
      (mulf (transpose S4096x128 [1, 0] v9 Facts₀.transposes_S128x4096_p1_0_S4096x128)
        (broadcastTo S4096x128 (shapeCast S4096x1 v11 Facts₀.shapeCasts_S4096x1_S4096x1) Facts₀.broadcasts_S4096x1_S4096x128)) (ix2 j c)
      = Cert.Spec.blend (fun k => v0 (ix2 k c)) (fun k => v9 (ix2 c k)) (fun k => v11 (ix2 k (0 : Fin 1))) j := by
  rw [addf_apply, mulf_apply, mulf_apply, colUnit, broadcastTo_a1_ab_apply, broadcastTo_a1_ab_apply, subf_apply,
    broadcast_apply, shapeCast_self, transpose_ix2_apply]
  rfl

/-- Entry (p, c) of the block the second body stores: row p of the normalized input against column c of the
    injected block. -/
theorem pay1_apply (v0 : Vec Ideal S4096x128 .f32) (v9 : Vec Ideal S128x4096 .f32) (v11 : Vec Ideal S4096x1 .f32)
    (v28 : Vec Ideal S512x4096 .bf16) (p : Fin 512) (c : Fin 128) :
    k1_pay1 (F := Ideal) v0 v9 v11 v28 (ix2 p c)
      = ∑ j : Fin 4096, v28 (ix2 p j) *
          Cert.Spec.unit (Cert.Spec.blend (fun k => v0 (ix2 k c)) (fun k => v9 (ix2 c k)) (fun k => v11 (ix2 k (0 : Fin 1)))) j := by
  unfold k1_pay1
  dsimp only
  refine (matmul_zero_ix2 _ rfl rfl rfl rfl rfl rfl none _ _ p c).trans (Finset.sum_congr rfl fun j _ => ?_)
  rw [shapeCast_self, truncf_apply]
  refine congrArg (v28 (ix2 p j) * ·) ?_
  refine (colUnit _ _ _ j c).trans ?_
  exact congrArg (fun f => Cert.Spec.unit f j) (funext fun k => blendAt v0 v9 v11 _ _ k c)

end Cert.KernelIdeal.Val

end
-- ==== Proof.Product.lean ====
/-
  The second region's output array. Grid point t holds weight columns 128·t … 128·t + 127 (all 4096 rows), queue
  rows 128·t … 128·t + 127 (all 4096 columns), the whole mixing-weight column and the whole normalized input, and writes back
  columns 128·t … 128·t + 127 of the result (all 512 rows). Column c of the injected matrix reads weight column c
  and queue row c only, so each written block is the block of ONE whole-array function: the normalized input times
  the injected matrix. The thirty-two blocks tile the array.
-/
import proofs.«138126_j40544491274895_1_alg».proof.Proof.Gen.KernelIdeal.Frame
import proofs.«138126_j40544491274895_1_alg».proof.Proof.InjectBody
import proofs.«138126_j40544491274895_1_alg».proof.Proof.Spec
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.ShloMosaic.ValueIdx
open Idealize.SL.Sem
open Idealize.ShloMosaic.Pipeline (Dat)
open Cert.KernelIdeal Cert.KernelIdeal.Gen
open scoped BigOperators

variable (V : (c : Dev nD) → (b : Ref sig .tc) → Buf (Elt Ideal) ((c : Thread nD τ).loc b))

theorem no_offsets : (![0, 0] : Fin 2 → Nat) = fun _ => 0 := funext fun a => by fin_cases a <;> rfl

/-- Over the thirty-two grid points: the normalized input and the mixing-weight column are whole (block (0, 0)); the weight's
    block column and the queue's block row are the output's block column; every other block index is 0. -/
theorem cols_facts : ∀ t : Fin cfg1.N,
    win1_0.index t (0 : Fin 2) = 0 ∧ win1_0.index t (1 : Fin 2) = 0
    ∧ win1_1.index t (0 : Fin 2) = 0 ∧ win1_1.index t (1 : Fin 2) = win1_4.index t (1 : Fin 2)
    ∧ win1_2.index t (0 : Fin 2) = win1_4.index t (1 : Fin 2) ∧ win1_2.index t (1 : Fin 2) = 0
    ∧ win1_3.index t (0 : Fin 2) = 0 ∧ win1_3.index t (1 : Fin 2) = 0
    ∧ win1_4.index t (0 : Fin 2) = 0 ∧ win1_4.index t (1 : Fin 2) ≤ 31 :=
  (by decide +kernel : ∀ t : Fin grid1.N, _)

/-- Every block column is some point's. -/
theorem cols_onto : ∀ (r : Fin 32), ∃ t : Fin cfg1.N, win1_4.index t = ![0, r.val] :=
  (by decide +kernel : ∀ (r : Fin 32), ∃ t : Fin grid1.N, win1_4.index t = ![0, r.val])

/-- One block: if the loaded blocks are the whole normalized input `NX`, columns r·128 … of the weight `W`, rows
    r·128 … of the queue `Q` and the whole mixing-weight column `G`, the stored block is columns r·128 … of the product. -/
theorem colBlock (NX : S512x4096.Idx → EReal) (W Q : S4096x4096.Idx → EReal) (G : S4096x1.Idx → EReal)
    (x0 : Vec Ideal S512x4096 .bf16) (x1 : Vec Ideal S4096x128 .f32) (x2 : Vec Ideal S128x4096 .f32) (x3 : Vec Ideal S4096x1 .f32)
    (r : ℕ) (j : S512x128.Idx) (i : S512x4096.Idx)
    (hi0 : (i 0).val = (j 0).val) (hi1 : (i 1).val = r * 128 + (j 1).val)
    (h0 : ∀ y : S512x4096.Idx, x0 y = NX y)
    (h1 : ∀ (y : S4096x128.Idx) (z : S4096x4096.Idx), (z 0).val = (y 0).val → (z 1).val = r * 128 + (y 1).val → x1 y = W z)
    (h2 : ∀ (y : S128x4096.Idx) (z : S4096x4096.Idx), (z 0).val = r * 128 + (y 0).val → (z 1).val = (y 1).val → x2 y = Q z)
    (h3 : ∀ y : S4096x1.Idx, x3 y = G y) :
    k1_pay1 (F := Ideal) x1 x2 x3 x0 j = Cert.Spec.product NX W Q (fun k => G (ix2 k (0 : Fin 1))) i := by
  obtain ⟨p, cc, rfl⟩ : ∃ (p : Fin 512) (cc : Fin 128), j = ix2 p cc := ⟨j 0, j 1, eq_ix2 j⟩
  obtain ⟨ri, ci, rfl⟩ : ∃ (ri : Fin 512) (ci : Fin 4096), i = ix2 ri ci := ⟨i 0, i 1, eq_ix2 i⟩
  have hp : ri = p := Fin.ext hi0
  have hc : ci.val = r * 128 + cc.val := hi1
  have e1 : (fun k' : Fin 4096 => x1 (ix2 k' cc)) = fun k' : Fin 4096 => W (ix2 k' ci) :=
    funext fun k' => h1 (ix2 k' cc) (ix2 k' ci) rfl hc
  have e2 : (fun k' : Fin 4096 => x2 (ix2 cc k')) = fun k' : Fin 4096 => Q (ix2 ci k') :=
    funext fun k' => h2 (ix2 cc k') (ix2 ci k') hc rfl
  have e3 : (fun k' : Fin 4096 => x3 (ix2 k' (0 : Fin 1))) = fun k' : Fin 4096 => G (ix2 k' (0 : Fin 1)) :=
    funext fun k' => h3 _
  rw [pay1_apply, e1, e2, e3, hp]
  unfold Cert.Spec.product Cert.Spec.injected
  exact Finset.sum_congr rfl fun k _ => congrArg (· * _) (h0 _)

/-- What point `t` writes back is block `t` of the product of the array in the first operand's buffer with the
    injected matrix of the weight, the queue and the mixing-weight column. -/
theorem flushed_cols (c : Dev nD) (t : Fin cfg1.N) :
    (dat1 V c).flushed 4 t = ((cfg1.win 4).blk t).view.read (Elt Ideal)
      (Cert.Spec.product (V c main_v11) (V c main_arg1) (V c main_arg2) (fun k => V c main_v10 (ix2 k (0 : Fin 1)))) := by
  show (cfg1.win 4).cut (grid1.coords t) ((dat1 V c).after 4 t) = _
  rw [after1_4]
  unfold out1_4
  rw [View.canon_unit_zero no_offsets]
  simp only [View.ld_unit_zero (S := S4096x128) no_offsets, View.ld_unit_zero (S := S128x4096) no_offsets,
    View.ld_unit_zero (S := S4096x1) no_offsets, View.ld_unit_zero (S := S512x4096) no_offsets]
  obtain ⟨a0, a1, b0, b1, c0, c1, d0, d1, o0, o1⟩ := cols_facts t
  funext j
  refine colBlock (V c main_v11) (V c main_arg1) (V c main_arg2) (V c main_v10)
    (iblk1 V c 0 t) (iblk1 V c 1 t) (iblk1 V c 2 t) (iblk1 V c 3 t) (win1_4.index t (1 : Fin 2)) j _ ?_ ?_ ?_ ?_ ?_ ?_
  · show win1_4.index t (0 : Fin 2) * 512 + 1 * (j 0).val = _
    omega
  · show win1_4.index t (1 : Fin 2) * 128 + 1 * (j 1).val = _
    omega
  · intro y
    show V c main_v11 (((cfg1.win 0).blk t).view.emb y) = V c main_v11 y
    refine congrArg _ (funext fun a => Fin.ext ?_)
    match a with
    | ⟨0, _⟩ => show win1_0.index t (0 : Fin 2) * 512 + 1 * (y 0).val = (y 0).val; omega
    | ⟨1, _⟩ => show win1_0.index t (1 : Fin 2) * 4096 + 1 * (y 1).val = (y 1).val; omega
  · intro y z hz0 hz1
    show V c main_arg1 (((cfg1.win 1).blk t).view.emb y) = V c main_arg1 z
    refine congrArg _ (funext fun a => Fin.ext ?_)
    match a with
    | ⟨0, _⟩ => show win1_1.index t (0 : Fin 2) * 4096 + 1 * (y 0).val = (z 0).val; omega
    | ⟨1, _⟩ => show win1_1.index t (1 : Fin 2) * 128 + 1 * (y 1).val = (z 1).val; omega
  · intro y z hz0 hz1
    show V c main_arg2 (((cfg1.win 2).blk t).view.emb y) = V c main_arg2 z
    refine congrArg _ (funext fun a => Fin.ext ?_)
    match a with
    | ⟨0, _⟩ => show win1_2.index t (0 : Fin 2) * 128 + 1 * (y 0).val = (z 0).val; omega
    | ⟨1, _⟩ => show win1_2.index t (1 : Fin 2) * 4096 + 1 * (y 1).val = (z 1).val; omega
  · intro y
    show V c main_v10 (((cfg1.win 3).blk t).view.emb y) = V c main_v10 y
    refine congrArg _ (funext fun a => Fin.ext ?_)
    match a with
    | ⟨0, _⟩ => show win1_3.index t (0 : Fin 2) * 4096 + 1 * (y 0).val = (y 0).val; omega
    | ⟨1, _⟩ => show win1_3.index t (1 : Fin 2) * 1 + 1 * (y 1).val = (y 1).val; omega

/-- An index is in point `t`'s block iff each coordinate is in the block's range on its axis. -/
theorem mem_cols (t : Fin cfg1.N) (i : S512x4096.Idx) :
    i ∈ ((cfg1.win 4).blk t).view.set ↔ ∀ a : Fin 2, win1_4.index t a * S512x128.size a ≤ (i a).val ∧ (i a).val < win1_4.index t a * S512x128.size a + S512x128.size a := by
  show i ∈ ((View.whole main_v12).slice (win1_4.rect t)).set ↔ _
  rw [View.set_slice_whole, Rect.mem_set_unit]
  exact Iff.rfl

/-- The second region leaves, in its output array, the product of the array it finds in its first operand's buffer
    with the injected matrix. -/
theorem multiplied (c : Dev nD) : (dat1 V c).arrAt 4 cfg1.N
    = Cert.Spec.product (V c main_v11) (V c main_arg1) (V c main_arg2) (fun k => V c main_v10 (ix2 k (0 : Fin 1))) := by
  refine (dat1 V c).arrAt_eq_of_cover 4 _ (fun t _ => flushed_cols V c t) fun i => ?_
  have hi0 : (i 0).val < 512 := (i 0).isLt
  have hi1 : (i 1).val < 4096 := (i 1).isLt
  obtain ⟨t, ht⟩ := cols_onto ⟨(i 1).val / 128, by omega⟩
  have q0 : win1_4.index t (0 : Fin 2) = 0 := congrFun ht 0
  have q1 : win1_4.index t (1 : Fin 2) = (i 1).val / 128 := congrFun ht 1
  refine ⟨t, flush1_4 t, ?_⟩
  rw [mem_cols]
  intro a
  match a with
  | ⟨0, _⟩ => show win1_4.index t (0 : Fin 2) * 512 ≤ (i 0).val ∧ (i 0).val < win1_4.index t (0 : Fin 2) * 512 + 512; omega
  | ⟨1, _⟩ => show win1_4.index t (1 : Fin 2) * 128 ≤ (i 1).val ∧ (i 1).val < win1_4.index t (1 : Fin 2) * 128 + 128; omega

end Cert.KernelIdeal.Val

end
-- ==== Proof.KernelValue.lean ====
/-
  The idealized kernel's value. The result buffer after the run is what the second region leaves; the second region
  multiplies what the first region left (the input normalized row by row) with the injected matrix of the weight,
  the queue (both as launched) and the mixing-weight column the host operations wrote. So the kernel returns `Spec.result`
  of its arguments, with the mixing-weight vector as its own host operations compute it.
-/
import proofs.«138126_j40544491274895_1_alg».proof.Proof.KernelRun
import proofs.«138126_j40544491274895_1_alg».proof.Proof.MixWeight
import proofs.«138126_j40544491274895_1_alg».proof.Proof.Normed
import proofs.«138126_j40544491274895_1_alg».proof.Proof.Product
import proofs.«138126_j40544491274895_1_alg».proof.Proof.Spec
import proofs.«138126_j40544491274895_1_alg».proof.Proof.LibColumns

set_option maxRecDepth 16384

noncomputable section

namespace Cert.KernelIdeal.Val

open Idealize.ShloMosaic Idealize.ShloMosaic.TcCoe Idealize.ShloMosaic.ValueIdx
open Idealize.SL.Sem
open Cert.KernelIdeal Cert.KernelIdeal.Gen

variable (m : (ℓ : Loc nD τ sig) → Buf (Elt Ideal) ℓ) (ρ : Dev nD → PrngReg)

/-- The second region is entered with the input, normalized row by row, in its first operand's buffer. -/
theorem V4_normRows (c : Dev nD) :
    V4 m ρ c main_v11 = Cert.Spec.normRows (m ((c : Thread nD τ).loc main_arg0)) :=
  (V4_normed m ρ c).trans ((normed (V3 m ρ) c).trans (congrArg Cert.Spec.normRows (V3_arg0 m ρ c)))

/-- The second region is entered with the mixing-weight vector in the mixing-weight column: entry (k, 0) is entry k. -/
theorem V4_mixColumn_at (c : Dev nD) (k : Fin 4096) :
    V4 m ρ c main_v10 (ix2 k (0 : Fin 1))
      = mixWeight (m ((c : Thread nD τ).loc main_arg3)) (m ((c : Thread nD τ).loc main_arg4)) (ix1 k) :=
  (congrFun ((V4_mixColumn m ρ c).trans (V3_mixColumn m ρ c)) (ix2 k (0 : Fin 1))).trans
    (shapeCast_a_a1_apply _ Facts₀.shapeCasts_S4096_S4096x1 k (0 : Fin 1))

/-- The result buffer after the run. -/
theorem result_array (c : Dev nD) :
    W5 m ρ c (Proc.devRef .tc main_v12)
      = Cert.Spec.result (m ((c : Thread nD τ).loc main_arg0)) (m ((c : Thread nD τ).loc main_arg1)) (m ((c : Thread nD τ).loc main_arg2))
          (fun k => mixWeight (m ((c : Thread nD τ).loc main_arg3)) (m ((c : Thread nD τ).loc main_arg4)) (ix1 k)) := by
  refine (W5_result m ρ c).trans ((multiplied (V4 m ρ) c).trans ?_)
  rw [V4_normRows, V4_arg1, V4_arg2]
  unfold Cert.Spec.result
  exact congrArg (Cert.Spec.product _ _ _) (funext fun k => V4_mixColumn_at m ρ c k)

/-- Every weakly fair execution of the idealized kernel terminates without a fault, with `Spec.result` of the
    arguments in the result buffer and the arguments as launched. -/
theorem run_value : θ_run defs (onTc (τ := τ) (main (F := Ideal))) ⟨m, fun _ => 0, ρ⟩ (fun r => ∀ c : Dev nD,
      r.2.mem ((c.tc : Thread nD τ).loc main_v12)
        = Cert.Spec.result (m ((c : Thread nD τ).loc main_arg0)) (m ((c : Thread nD τ).loc main_arg1)) (m ((c : Thread nD τ).loc main_arg2))
            (fun k => mixWeight (m ((c : Thread nD τ).loc main_arg3)) (m ((c : Thread nD τ).loc main_arg4)) (ix1 k))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (result_array m ρ c), (h c).2⟩) (run_named m ρ)

end Cert.KernelIdeal.Val

end
-- ==== Proof.RefValue.lean ====
/-
  The reference, read at coordinates. Each stage of the host program is read at an index from the stages before it:
  a row's sum of squares, the row normalization, a column's sum of squares, the column normalization, the mixing weight laid
  along the rows, the blend, the blend's column normalization, and the final matrix product. Together: the
  reference returns `Spec.result` of its arguments, with the mixing-weight vector as its own operations compute it.
-/
import proofs.«138126_j40544491274895_1_alg».proof.Proof.Gen.ReferenceIdeal.Read
import proofs.«138126_j40544491274895_1_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.ValueIdx
open scoped BigOperators

variable (x0 : (⟨S512x4096, .f32⟩ : BufTy).Contents (Elt Ideal)) (x1 x2 : (⟨S4096x4096, .f32⟩ : BufTy).Contents (Elt Ideal))
  (x3 : (⟨S4096, .i32⟩ : BufTy).Contents (Elt Ideal)) (x4 : (⟨S_, .i32⟩ : BufTy).Contents (Elt Ideal))

/-- The sum of squares along row `p` of the input (the sum starts from the zero word). -/
theorem sumsq_row (p : Fin 512) :
    val_main_v11 (F := Ideal) x0 (ix1 p) = ∑ k : Fin 4096, x0 (ix2 p k) * x0 (ix2 p k) := by
  rw [val_main_v11_apply, val_main_cst_3_apply, Ideal.ofBits_def, Ideal.ofBits_zero_f32, zero_add]
  refine Finset.sum_congr rfl fun k _ => ?_
  have e : idx_main_v11 (ix1 p) k = ix2 p k :=
    funext fun a => Fin.ext (by match a with | ⟨0, _⟩ => rfl | ⟨1, _⟩ => rfl)
  rw [val_main_v10_apply, e]
  rfl

/-- The input normalized along its rows, at (p, k). -/
theorem norm_row (p : Fin 512) (k : Fin 4096) :
    val_main_v17 (F := Ideal) x0 (ix2 p k) = Cert.Spec.unit (fun k' => x0 (ix2 p k')) k := by
  have e : idx_main_v12 (idx_main_v16 (ix2 p k)) = ix1 p :=
    funext fun a => Fin.ext (by match a with | ⟨0, _⟩ => rfl)
  rw [val_main_v17_apply, val_main_v16_apply, val_main_v15_apply, val_main_v13_apply, val_main_v12_apply,
    val_main_v14_apply, val_main_cst_4_apply, e, sumsq_row]
  rfl

/-- The sum of squares down column `q` of the weight. -/
theorem sumsq_col (q : Fin 4096) :
    val_main_v19 (F := Ideal) x1 (ix1 q) = ∑ k : Fin 4096, x1 (ix2 k q) * x1 (ix2 k q) := by
  rw [val_main_v19_apply, val_main_cst_5_apply, Ideal.ofBits_def, Ideal.ofBits_zero_f32, zero_add]
  refine Finset.sum_congr rfl fun k _ => ?_
  have e : idx_main_v19 (ix1 q) k = ix2 k q :=
    funext fun a => Fin.ext (by match a with | ⟨0, _⟩ => rfl | ⟨1, _⟩ => rfl)
  rw [val_main_v18_apply, e]
  rfl

/-- The weight normalized down its columns, at (j, q). -/
theorem norm_col (j q : Fin 4096) :
    val_main_v25 (F := Ideal) x1 (ix2 j q) = Cert.Spec.unit (fun k => x1 (ix2 k q)) j := by
  have e : idx_main_v20 (idx_main_v24 (ix2 j q)) = ix1 q :=
    funext fun a => Fin.ext (by match a with | ⟨0, _⟩ => rfl)
  rw [val_main_v25_apply, val_main_v24_apply, val_main_v23_apply, val_main_v21_apply, val_main_v20_apply,
    val_main_v22_apply, val_main_cst_6_apply, e, sumsq_col]
  rfl

/-- The mixing-weight vector laid out as a column: entry (j, 0) is entry j. -/
theorem mixWeight_col (j : Fin 4096) :
    val_main_v26 (F := Ideal) x3 x4 (ix2 j (0 : Fin 1)) = val_main_v9 (F := Ideal) x3 x4 (ix1 j) := by
  have e : idx_main_v26 (ix2 j (0 : Fin 1)) = ix1 j :=
    funext fun a => Fin.ext (by match a with | ⟨0, _⟩ => rfl)
  rw [val_main_v26_apply, e]

/-- The blend at (j, q): the normalized weight column q and the queue row q, mixed by the mixing weight at row j. -/
theorem blend_at (j q : Fin 4096) :
    val_main_v34 (F := Ideal) x1 x2 x3 x4 (ix2 j q)
      = Cert.Spec.blend (fun k => x1 (ix2 k q)) (fun k => x2 (ix2 q k)) (fun k => val_main_v9 (F := Ideal) x3 x4 (ix1 k)) j := by
  have e29 : idx_main_v29 (ix2 j q) = ix2 j (0 : Fin 1) :=
    funext fun a => Fin.ext (by match a with | ⟨0, _⟩ => rfl | ⟨1, _⟩ => rfl)
  have e32 : idx_main_v32 (ix2 j q) = ix2 j (0 : Fin 1) :=
    funext fun a => Fin.ext (by match a with | ⟨0, _⟩ => rfl | ⟨1, _⟩ => rfl)
  have e31 : idx_main_v31 (ix2 j q) = ix2 q j :=
    funext fun a => Fin.ext (by match a with | ⟨0, _⟩ => rfl | ⟨1, _⟩ => rfl)
  rw [val_main_v34_apply, val_main_v30_apply, val_main_v33_apply, val_main_v29_apply, val_main_v28_apply,
    val_main_v27_apply, val_main_cst_7_apply, val_main_v31_apply, val_main_v32_apply, e29, e32, e31, mixWeight_col, norm_col]
  rfl

/-- The sum of squares down column `q` of the blend. -/
theorem sumsq_blend (q : Fin 4096) :
    val_main_v36 (F := Ideal) x1 x2 x3 x4 (ix1 q)
      = ∑ k : Fin 4096, val_main_v34 (F := Ideal) x1 x2 x3 x4 (ix2 k q) * val_main_v34 (F := Ideal) x1 x2 x3 x4 (ix2 k q) := by
  rw [val_main_v36_apply, val_main_cst_8_apply, Ideal.ofBits_def, Ideal.ofBits_zero_f32, zero_add]
  refine Finset.sum_congr rfl fun k _ => ?_
  have e : idx_main_v36 (ix1 q) k = ix2 k q :=
    funext fun a => Fin.ext (by match a with | ⟨0, _⟩ => rfl | ⟨1, _⟩ => rfl)
  rw [val_main_v35_apply, e]
  rfl

/-- The injected matrix at (j, q): the blend's column q, normalized. -/
theorem injected_at (j q : Fin 4096) :
    val_main_v42 (F := Ideal) x1 x2 x3 x4 (ix2 j q)
      = Cert.Spec.injected x1 x2 (fun k => val_main_v9 (F := Ideal) x3 x4 (ix1 k)) q j := by
  have e : idx_main_v37 (idx_main_v41 (ix2 j q)) = ix1 q :=
    funext fun a => Fin.ext (by match a with | ⟨0, _⟩ => rfl)
  have hb : (fun k : Fin 4096 => val_main_v34 (F := Ideal) x1 x2 x3 x4 (ix2 k q))
      = Cert.Spec.blend (fun k => x1 (ix2 k q)) (fun k => x2 (ix2 q k)) (fun k => val_main_v9 (F := Ideal) x3 x4 (ix1 k)) :=
    funext fun k => blend_at x1 x2 x3 x4 k q
  rw [val_main_v42_apply, val_main_v41_apply, val_main_v40_apply, val_main_v38_apply, val_main_v37_apply,
    val_main_v39_apply, val_main_cst_9_apply, e, sumsq_blend]
  show Cert.Spec.unit (fun k : Fin 4096 => val_main_v34 (F := Ideal) x1 x2 x3 x4 (ix2 k q)) j = _
  rw [hb]
  rfl

/-- The reference's result is `Spec.result` of its arguments and of the mixing-weight vector its own operations compute. -/
theorem result_eq :
    val_main_v43 (F := Ideal) x0 x1 x2 x3 x4
      = Cert.Spec.result x0 x1 x2 (fun k => val_main_v9 (F := Ideal) x3 x4 (ix1 k)) := by
  funext i
  obtain ⟨p, q, rfl⟩ : ∃ (p : Fin 512) (q : Fin 4096), i = ix2 p q := ⟨i 0, i 1, eq_ix2 i⟩
  rw [val_main_v43_apply]
  unfold Cert.Spec.result Cert.Spec.product
  refine Finset.sum_congr rfl fun k _ => ?_
  have el : lidx_main_v43 (ix2 p q) k = ix2 p k :=
    funext fun a => Fin.ext (by match a with | ⟨0, _⟩ => rfl | ⟨1, _⟩ => rfl)
  have er : ridx_main_v43 (ix2 p q) k = ix2 k q :=
    funext fun a => Fin.ext (by match a with | ⟨0, _⟩ => rfl | ⟨1, _⟩ => rfl)
  rw [el, er, norm_row, injected_at]
  rfl

end Cert.ReferenceIdeal.RefValue

end
-- ==== Proof.lean ====
/-
  The certificate: a two-region kernel against its jnp reference, on the extended reals.

  Both programs normalize the input's rows, normalize the weight's columns, blend each column with the matching
  queue row by a per-row mixing weight (computed by the same host operations from the iteration stamps and the counter),
  normalize the blend's columns again, and multiply. The kernel does this in two regions — four row blocks for the
  input, thirty-two column blocks for the rest — and the reference in one host program; on the extended reals a
  row's normalization reads only that row and a column's only that column, so the tiling changes nothing and the
  two results are one function of the arguments (`Spec.result`), literal for literal. No law beyond that is
  needed, so the finiteness of the inputs is never opened.

  The three frames are the programs' runs (the kernels' generated frames; the reference's generated run with the
  result dropped); the idealization rewrote nothing, so what it preserves is trivially true; the algebraic claim
  pairs the kernel's value run with the reference's run, both stated at `Spec.result`.
-/
import proofs.«138126_j40544491274895_1_alg».proof.Defs
import proofs.«138126_j40544491274895_1_alg».proof.Proof.Gen.Kernel
import proofs.«138126_j40544491274895_1_alg».proof.Proof.Gen.Kernel.Skeleton
import proofs.«138126_j40544491274895_1_alg».proof.Proof.Gen.Kernel.Launch
import proofs.«138126_j40544491274895_1_alg».proof.Proof.Gen.Kernel.Points
import proofs.«138126_j40544491274895_1_alg».proof.Proof.Gen.Kernel.Frame
import proofs.«138126_j40544491274895_1_alg».proof.Proof.Gen.KernelIdeal
import proofs.«138126_j40544491274895_1_alg».proof.Proof.Gen.KernelIdeal.Skeleton
import proofs.«138126_j40544491274895_1_alg».proof.Proof.Gen.KernelIdeal.Launch
import proofs.«138126_j40544491274895_1_alg».proof.Proof.Gen.KernelIdeal.Points
import proofs.«138126_j40544491274895_1_alg».proof.Proof.Gen.KernelIdeal.Frame
import proofs.«138126_j40544491274895_1_alg».proof.Proof.Gen.ReferenceIdeal
import proofs.«138126_j40544491274895_1_alg».proof.Proof.Gen.Pre_finite_inputs
import proofs.«138126_j40544491274895_1_alg».proof.Proof.Gen.ReferenceIdeal.Run
import proofs.«138126_j40544491274895_1_alg».proof.Proof.Gen.ReferenceIdeal.Read
import proofs.«138126_j40544491274895_1_alg».proof.Proof.KernelValue
import proofs.«138126_j40544491274895_1_alg».proof.Proof.RefValue
import Idealize.ShloMosaic.Adequacy
import Idealize.ShloMosaic.Init

noncomputable section

namespace Cert.Proof

open Idealize.ShloMosaic Idealize.ShloMosaic.ValueIdx Idealize.SL.Sem

/-- The two programs' host operations compute one mixing-weight vector from the stamps and the counter. -/
theorem mixWeight_eq (x3 : (⟨Cert.KernelIdeal.S4096, .i32⟩ : BufTy).Contents (Elt Ideal))
    (x4 : (⟨Cert.KernelIdeal.S_, .i32⟩ : BufTy).Contents (Elt Ideal)) :
    Cert.ReferenceIdeal.Read.val_main_v9 (F := Ideal) x3 x4 = Cert.KernelIdeal.Val.mixWeight (F := Ideal) x3 x4 := rfl

theorem frame_kernel : Cert.frame_Kernel := fun m ρ _ => Cert.Kernel.Gen.frame m ρ
theorem frame_ideal : Cert.frame_KernelIdeal := fun m ρ _ => Cert.KernelIdeal.Gen.frame m ρ
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments both programs end with `Spec.result` of the arguments in their
    result buffers. -/
theorem algebraic : Cert.algebraic_KernelIdeal_ReferenceIdeal := by
  intro m ρ m' ρ' _ hagree
  refine ⟨_, Cert.KernelIdeal.Val.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v43_eq, Cert.ReferenceIdeal.RefValue.result_eq,
    (hagree c).1, (hagree c).2.1, (hagree c).2.2.1, (hagree c).2.2.2.1, (hagree c).2.2.2.2, mixWeight_eq]

theorem claim : Cert.Claim := ⟨Cert.Kernel.Gen.facts, Cert.KernelIdeal.Gen.facts, Cert.ReferenceIdeal.Gen.facts, Cert.Pre_finite_inputs.Gen.facts,
  frame_kernel, frame_ideal, frame_reference, trivial, algebraic⟩

end Cert.Proof

end
